-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x128 : Shape := ⟨3, ![2, 50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S2x50000x128 : S_.BroadcastsInDim S2x50000x128 (![] : Fin 0 → Fin S2x50000x128.rank)
  reducesTo_S2x50000x128_S_d0_1_2 : S2x50000x128.ReducesTo [0, 1, 2] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S2x50000x128 .f32) (main_arg1 : IVec S800000 32) (main_arg2 : IVec S800000 32) (main_arg3 : FVec F S800000 .f32) (main_arg4 : FVec F S128x128 .f32) (main_arg5 : FVec F S128 .f32) : IVec S_ 1 :=
  let main_v0 : FVec F S2x50000x128 .f32 := Host.absf main_arg0
  let main_cst : FVec F S_ .f32 := constant S_ .f32 0x7F800000#32
  let main_v1 : FVec F S2x50000x128 .f32 := broadcastInDim S2x50000x128 ![] bcast_S_S2x50000x128 main_cst
  let main_v2 : IVec S2x50000x128 1 := cmpf .olt main_v0 main_v1
  let main_c : IVec S_ 1 := constantI S_ 1 1#1
  let main_v3 : IVec S_ 1 := (fun x v => Host.reduce IntOp.andi x v reducesTo_S2x50000x128_S_d0_1_2 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S2x50000x128 : Shape := ⟨3, ![2, 50000, 128]⟩
abbrev S800000 : Shape := ⟨1, ![800000]⟩
abbrev S128x128 : Shape := ⟨2, ![128, 128]⟩
abbrev S128 : Shape := ⟨1, ![128]⟩
abbrev S50000x256 : Shape := ⟨2, ![50000, 256]⟩
abbrev S1x5000x128 : Shape := ⟨3, ![1, 5000, 128]⟩
abbrev S5000x128 : Shape := ⟨2, ![5000, 128]⟩
abbrev S_ : Shape := ⟨0, ![]⟩
abbrev S800000x1 : Shape := ⟨2, ![800000, 1]⟩
abbrev S800000x256 : Shape := ⟨2, ![800000, 256]⟩
abbrev S1x128 : Shape := ⟨2, ![1, 128]⟩

abbrev nBuf : Space → Nat
  | .hbm => 24
  | .vmem => 10
  | .smem => 0
  | _ => 0

abbrev bufTy : (tb : Table) → Fin (tcTables nBuf tb) → BufTy
  | .hbm, ⟨0, _⟩ => ⟨S2x50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S50000x256, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x256, .f32⟩
  | .hbm, ⟨16, _⟩ => ⟨S800000x1, .f32⟩
  | .hbm, ⟨17, _⟩ => ⟨S800000x256, .f32⟩
  | .hbm, ⟨18, _⟩ => ⟨S800000x256, .f32⟩
  | .hbm, ⟨19, _⟩ => ⟨S_, .f32⟩
  | .hbm, ⟨20, _⟩ => ⟨S50000x256, .f32⟩
  | .hbm, ⟨21, _⟩ => ⟨S800000x1, .i32⟩
  | .hbm, ⟨22, _⟩ => ⟨S50000x256, .f32⟩
  | .hbm, ⟨23, _⟩ => ⟨S2x50000x128, .f32⟩
  | .local _ .vmem, ⟨0, _⟩ => ⟨S1x5000x128, .f32⟩
  | .local _ .vmem, ⟨1, _⟩ => ⟨S1x5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S1x5000x128, .f32⟩
  | .local _ .vmem, ⟨9, _⟩ => ⟨S1x5000x128, .f32⟩
  | _, _ => ⟨S2x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![2, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 10], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S5000x128_S1x5000x128 : S5000x128.ShapeCasts S1x5000x128
  dot_S5000x128_S128x128_S5000x128_1_0_0_1_n_n_wf : DotDims.WF S5000x128 S128x128 S5000x128 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x128.size a ≤ S2x50000x128.size a
  hwx0_0 : ∀ i : grid0.Coords, EltTy.bits .f32 = 32 ∨ (Rect.block (s := S2x50000x128) S1x5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x256.size a
  hwx0_2 : ∀ i : grid0.Coords, EltTy.bits .f32 = 32 ∨ (Rect.block (s := S50000x256) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x256.size a
  hwx1_0 : ∀ i : grid1.Coords, EltTy.bits .f32 = 32 ∨ (Rect.block (s := S50000x256) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x5000x128.size a ≤ S2x50000x128.size a
  hwx1_2 : ∀ i : grid1.Coords, EltTy.bits .f32 = 32 ∨ (Rect.block (s := S2x50000x128) S1x5000x128.size (cc1_transform_2 i) (hinb1_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S1x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x50000x128 : Shape := ⟨3, ![2, 50000, 128]⟩
abbrev S800000 : Shape := ⟨1, ![800000]⟩
abbrev S128x128 : Shape := ⟨2, ![128, 128]⟩
abbrev S128 : Shape := ⟨1, ![128]⟩
abbrev S50000x2x128 : Shape := ⟨3, ![50000, 2, 128]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S1x1x128 : Shape := ⟨3, ![1, 1, 128]⟩

abbrev nBuf : Space → Nat
  | .hbm => 30
  | .vmem => 0
  | .smem => 0
  | _ => 0

abbrev bufTy : (tb : Table) → Fin (tcTables nBuf tb) → BufTy
  | .hbm, ⟨0, _⟩ => ⟨S2x50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S2x50000x128, .f32⟩
  | .hbm, ⟨7, _⟩ => ⟨S50000x2x128, .f32⟩
  | .hbm, ⟨8, _⟩ => ⟨S50000x256, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S800000x1, .f32⟩
  | .hbm, ⟨19, _⟩ => ⟨S800000x256, .f32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S50000x2x128, .f32⟩
  | .hbm, ⟨26, _⟩ => ⟨S2x50000x128, .f32⟩
  | .hbm, ⟨27, _⟩ => ⟨S1x1x128, .f32⟩
  | .hbm, ⟨28, _⟩ => ⟨S2x50000x128, .f32⟩
  | .hbm, ⟨29, _⟩ => ⟨S2x50000x128, .f32⟩
  | _, _ => ⟨S2x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  transposes_S2x50000x128_S50000x2x128_1_0_2 : S2x50000x128.Transposes [1, 0, 2] S50000x2x128
  shapeCasts_S50000x2x128_S50000x256 : S50000x2x128.ShapeCasts S50000x256
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S50000x256_S50000x2x128 : S50000x256.ShapeCasts S50000x2x128
  transposes_S50000x2x128_S2x50000x128_1_0_2 : S50000x2x128.Transposes [1, 0, 2] S2x50000x128
  bcast_S128_S1x1x128_2 : S128.BroadcastsInDim S1x1x128 (![2] : Fin 1 → Fin S1x1x128.rank)
  bcast_S1x1x128_S2x50000x128_0_1_2 : S1x1x128.BroadcastsInDim S2x50000x128 (![0, 1, 2] : Fin 3 → Fin S2x50000x128.rank)
  dot_S2x50000x128_S128x128_S2x50000x128_2_0_01_1_n_n_wf : DotDims.WF S2x50000x128 S128x128 S2x50000x128 [2] [0] [0, 1] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S2x50000x128_S128x128_S2x50000x128_2_0_01_1_n_n : DotDims S2x50000x128 S128x128 S2x50000x128 where
  lhsContracting := [2]
  rhsContracting := [0]
  lhsNonContracting := [0, 1]
  rhsNonContracting := [1]
  lhsBatch := []
  rhsBatch := []
  wf := dot_S2x50000x128_S128x128_S2x50000x128_2_0_01_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.KernelRun.lean ====
/-
  The kernel program's run with its result named. The program is two grid regions with a stretch of host operations
  between them; its buffers after each segment are a fold from the launch memory: region 0 leaves its output array at
  what its grid points wrote back, the host stretch applies its operations, region 1 leaves its output array at what
  its grid points wrote back. Every weakly fair execution terminates, without a fault, with the result buffer at the
  last fold's contents and the six argument arrays as launched.
-/
import proofs.«120719_j66778151518716_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the contents the fold through the three segments gives it, the arguments end
    as launched. -/
theorem run : θ_run defs (onTc (τ := τ) (main (F := F))) ⟨m, fun _ => 0, ρ⟩ (fun r => ∀ c : Dev nD,
      r.2.mem ((c.tc : Thread nD τ).loc main_v14) = W3 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v14 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.RunValue

end
-- ==== Proof.Spec.lean ====
/-
  The graph-convolution layer as three functions of whole arrays, index by index, on the extended reals.

  * `support x w` is the dense transform in NODE-MAJOR layout: row n, column q holds the product of node n's features
    in batch q / 128 with column q % 128 of the weight matrix, S[n, q] = Σ_k x[q / 128, n, k] · w[k, q % 128].
  * the message passing between the two (gather rows of S, scale, scatter-add) is the same host computation in both
    programs and is stated in the module Middle.
  * `finish agg bias` returns to batch-major layout and adds the bias: out[b, n, o] = agg[n, b · 128 + o] + bias[o].
-/
import Idealize.ShloMosaic.PureOps.Ideal
import Idealize.ShloMosaic.Lib.ValueIdx

noncomputable section

open scoped BigOperators

namespace Cert.Bridge

open Idealize.ShloMosaic Idealize.ShloMosaic.ValueIdx

/-- The batch a node-major column belongs to. -/
def colBatch (q : Fin 256) : Fin 2 := ⟨q.val / 128, by have := q.isLt; omega⟩
/-- The output feature a node-major column holds. -/
def colFeat (q : Fin 256) : Fin 128 := ⟨q.val % 128, Nat.mod_lt _ (by decide)⟩
/-- The node-major column of batch b, feature o. -/
def nmCol (b : Fin 2) (o : Fin 128) : Fin 256 := ⟨b.val * 128 + o.val, by have := b.isLt; have := o.isLt; omega⟩

theorem colBatch_nmCol (b : Fin 2) (o : Fin 128) : colBatch (nmCol b o) = b :=
  Fin.ext (by show (b.val * 128 + o.val) / 128 = b.val; have := o.isLt; omega)
theorem colFeat_nmCol (b : Fin 2) (o : Fin 128) : colFeat (nmCol b o) = o :=
  Fin.ext (by show (b.val * 128 + o.val) % 128 = o.val; have := o.isLt; omega)
theorem nmCol_col (q : Fin 256) : nmCol (colBatch q) (colFeat q) = q :=
  Fin.ext (by show q.val / 128 * 128 + q.val % 128 = q.val; omega)

/-- The dense transform in node-major layout: S[n, q] = Σ_k x[q / 128, n, k] · w[k, q % 128]. -/
def support (x : (⟨3, ![2, 50000, 128]⟩ : Shape).Idx → EReal) (w : (⟨2, ![128, 128]⟩ : Shape).Idx → EReal) :
    (⟨2, ![50000, 256]⟩ : Shape).Idx → EReal :=
  fun i => ∑ k : Fin 128, x (ix3 (colBatch (i 1)) (i 0) k) * w (ix2 k (colFeat (i 1)))

/-- Back to batch-major layout, plus the bias: out[b, n, o] = agg[n, b · 128 + o] + bias[o]. -/
def finish (agg : (⟨2, ![50000, 256]⟩ : Shape).Idx → EReal) (bias : (⟨1, ![128]⟩ : Shape).Idx → EReal) :
    (⟨3, ![2, 50000, 128]⟩ : Shape).Idx → EReal :=
  fun j => agg (ix2 (j 1) (nmCol (j 0) (j 2))) + bias (ix1 (j 2))

theorem support_apply (x : (⟨3, ![2, 50000, 128]⟩ : Shape).Idx → EReal) (w : (⟨2, ![128, 128]⟩ : Shape).Idx → EReal)
    (n : Fin 50000) (q : Fin 256) :
    support x w (ix2 n q) = ∑ k : Fin 128, x (ix3 (colBatch q) n k) * w (ix2 k (colFeat q)) := rfl

theorem finish_apply (agg : (⟨2, ![50000, 256]⟩ : Shape).Idx → EReal) (bias : (⟨1, ![128]⟩ : Shape).Idx → EReal)
    (b : Fin 2) (n : Fin 50000) (o : Fin 128) :
    finish agg bias (ix3 b n o) = agg (ix2 n (nmCol b o)) + bias (ix1 o) := rfl

end Cert.Bridge

end
-- ==== Proof.Middle.lean ====
/-
  The message passing between the two dense stages, as ONE function of the node-major support array: a column index
  below zero is wrapped once by the number of nodes, the rows of the support the column indices name are gathered,
  each gathered row is scaled by its edge value, and the scaled rows are added into a zero array at the rows the row
  indices name. Both programs run exactly these host operations on their own support array, so the two sides meet as
  soon as their support arrays are one array; what gather and scatter-add compute is never opened.
-/
import proofs.«120719_j66778151518716_1_alg».proof.Proof.Gen.KernelIdeal
import Idealize.ShloMosaic.PureOps.Ideal

noncomputable section

namespace Cert.Bridge

open Idealize.ShloMosaic Cert.KernelIdeal Cert.KernelIdeal.Gen

/-- Gather, scale, scatter-add: the aggregated node-major array from the support array, the edges' row and column
    indices and the edges' values. -/
def messages (S : (⟨S50000x256, .f32⟩ : BufTy).Contents (Elt Ideal))
    (rows cols : (⟨S800000, .i32⟩ : BufTy).Contents (Elt Ideal))
    (vals : (⟨S800000, .f32⟩ : BufTy).Contents (Elt Ideal)) : (⟨S50000x256, .f32⟩ : BufTy).Contents (Elt Ideal) :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 rows)
    (mulf
      (Host.gather gather_S50000x256_S800000x1_S800000x256_1_0_n_n_0_1_1256 S
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols)))
      (broadcastInDim S800000x256 ![0, 1] bcast_S800000x1_S800000x256_0_1
        (broadcastInDim S800000x1 ![0] bcast_S800000_S800000x1_0 vals)))

end Cert.Bridge

end
-- ==== Proof.KernelValue.lean ====
/-
  The kernel program's result as one function of its arguments. Region 0 leaves the node-major support array
  (`support` of x and w) in its output buffer; the host stretch between the regions is the message passing
  `messages` of that buffer and the edge arrays; region 1 leaves `finish` of the aggregated array and the bias in the
  result buffer. Composing the three along the fold of buffer contents through the program's segments gives the result.
-/
import proofs.«120719_j66778151518716_1_alg».proof.Proof.KernelRun
import proofs.«120719_j66778151518716_1_alg».proof.Proof.Spec
import proofs.«120719_j66778151518716_1_alg».proof.Proof.Middle
import Idealize.ShloMosaic.Lib.StableHlo.Run

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen Cert.Bridge

variable (m : (ℓ : Loc nD τ sig) → Buf (Elt Ideal) ℓ) (ρ : Dev nD → PrngReg)

/-- What region 0 leaves in its output array, for any contents `V` at its entry. -/
abbrev Region0Spec : Prop :=
  ∀ (V : (c : Dev nD) → (b : Ref sig .tc) → Buf (Elt Ideal) ((c : Thread nD τ).loc b)) (c : Dev nD),
    (dat0 (F := Ideal) V c).arrAt 2 cfg0.N = support (V c main_arg0) (V c main_arg4)
/-- What region 1 leaves in its output array, for any contents `V` at its entry. -/
abbrev Region1Spec : Prop :=
  ∀ (V : (c : Dev nD) → (b : Ref sig .tc) → Buf (Elt Ideal) ((c : Thread nD τ).loc b)) (c : Dev nD),
    (dat1 (F := Ideal) V c).arrAt 2 cfg1.N = finish (V c main_v13) (V c main_arg5)

/-- After region 0 its output buffer holds the support array of the launch contents of x and w. -/
theorem support_array (h0 : Region0Spec) (c : Dev nD) :
    W1 m ρ c (Proc.devRef .tc main_v0) = support (m ((c : Thread nD τ).loc main_arg0)) (m ((c : Thread nD τ).loc main_arg4)) :=
  (W1_arr m ρ c 2).trans (h0 (V0 m ρ) c)

/-- Region 0 leaves the edge arrays as launched: they are none of its windows' arrays. -/
theorem W1_rows (c : Dev nD) : W1 m ρ c (Proc.devRef .tc main_arg1) = m ((c : Thread nD τ).loc main_arg1) :=
  W1_of_ne m ρ c main_arg1 (by decide)
theorem W1_cols (c : Dev nD) : W1 m ρ c (Proc.devRef .tc main_arg2) = m ((c : Thread nD τ).loc main_arg2) :=
  W1_of_ne m ρ c main_arg2 (by decide)
theorem W1_vals (c : Dev nD) : W1 m ρ c (Proc.devRef .tc main_arg3) = m ((c : Thread nD τ).loc main_arg3) :=
  W1_of_ne m ρ c main_arg3 (by decide)

/-- The host stretch: region 1 finds the message passing of region 0's output in its first window's array. -/
theorem aggregated (c : Dev nD) :
    V2 m ρ c main_v13 = messages (W1 m ρ c (Proc.devRef .tc main_v0)) (W1 m ρ c (Proc.devRef .tc main_arg1))
      (W1 m ρ c (Proc.devRef .tc main_arg2)) (W1 m ρ c (Proc.devRef .tc main_arg3)) := by
  show StableHlo.after hostOps1 (W1 m ρ c) (Proc.devRef .tc main_v13) = _
  after_results
  rfl

/-- Region 1 finds the bias as launched: neither region 0 nor the host stretch writes it. -/
theorem bias_entry (c : Dev nD) : V2 m ρ c main_arg5 = m ((c : Thread nD τ).loc main_arg5) :=
  ((W3_arr m ρ c 1).trans (((dat1 (V2 m ρ) c).arrAt_in 1 rfl _).trans (A_eq1 (V2 m ρ) c 1))).symm.trans (W3_main_arg5 m ρ c)

/-- The result buffer after the last segment. -/
theorem result (h0 : Region0Spec) (h1 : Region1Spec) (c : Dev nD) :
    W3 m ρ c (Proc.devRef .tc main_v14)
      = finish (messages (support (m ((c : Thread nD τ).loc main_arg0)) (m ((c : Thread nD τ).loc main_arg4)))
          (m ((c : Thread nD τ).loc main_arg1)) (m ((c : Thread nD τ).loc main_arg2)) (m ((c : Thread nD τ).loc main_arg3)))
        (m ((c : Thread nD τ).loc main_arg5)) := by
  rw [← support_array m ρ h0 c, ← W1_rows m ρ c, ← W1_cols m ρ c, ← W1_vals m ρ c, ← aggregated m ρ c, ← bias_entry m ρ c]
  exact (W3_arr m ρ c 2).trans (h1 (V2 m ρ) c)

/-- The kernel program's run: the result buffer ends at the layer's function of the launch contents of the
    arguments, the arguments end as launched. -/
theorem run (h0 : Region0Spec) (h1 : Region1Spec) :
    θ_run defs (onTc (τ := τ) (main (F := Ideal))) ⟨m, fun _ => 0, ρ⟩ (fun r => ∀ c : Dev nD,
      r.2.mem ((c.tc : Thread nD τ).loc main_v14)
        = finish (messages (support (m ((c : Thread nD τ).loc main_arg0)) (m ((c : Thread nD τ).loc main_arg4)))
            (m ((c : Thread nD τ).loc main_arg1)) (m ((c : Thread nD τ).loc main_arg2)) (m ((c : Thread nD τ).loc main_arg3)))
          (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ h0 h1 c), (h c).2⟩) (Cert.KernelIdeal.RunValue.run m ρ)

end Cert.KernelIdeal.KernelValue

end
-- ==== Proof.RefValue.lean ====
/-
  The reference, read index by index. Its dense transform is an einsum over the batch-major array followed by a
  transposition and a reshape into node-major layout: entry (n, q) of the reshaped array is entry (q / 128, n, q % 128)
  of the einsum, the sum over k of x[q / 128, n, k] · w[k, q % 128] — the function `support`. Its message passing is
  the host computation `messages` of that array. Its last three operations reshape and transpose back and add the
  bias broadcast over batch and node: entry (b, n, o) is entry (n, b · 128 + o) of the aggregated array plus bias[o] —
  the function `finish`.
-/
import proofs.«120719_j66778151518716_1_alg».proof.Proof.Gen.ReferenceIdeal.Read
import proofs.«120719_j66778151518716_1_alg».proof.Proof.Spec
import proofs.«120719_j66778151518716_1_alg».proof.Proof.Middle

noncomputable section

open scoped BigOperators

namespace Cert.ReferenceIdeal.RefValue

open Idealize.ShloMosaic Idealize.ShloMosaic.ValueIdx Cert.ReferenceIdeal Cert.ReferenceIdeal.Read Cert.Bridge

/-- The reference's node-major array is `support`: reshape then transpose send (n, q) to (q / 128, n, q % 128), and
    the einsum there contracts the feature axis of x with the first axis of w. -/
theorem support_eq (x0 : (⟨S2x50000x128, .f32⟩ : BufTy).Contents (Elt Ideal)) (x4 : (⟨S128x128, .f32⟩ : BufTy).Contents (Elt Ideal)) :
    val_main_v2 (F := Ideal) x0 x4 = support x0 x4 := by
  funext i
  obtain ⟨n, q, rfl⟩ : ∃ (n : Fin 50000) (q : Fin 256), i = ix2 n q := ⟨i 0, i 1, eq_ix2 i⟩
  rw [val_main_v2_apply, val_main_v1_apply, val_main_v0_apply, support_apply]
  refine Finset.sum_congr rfl fun k _ => ?_
  have hn : n.val < 50000 := n.isLt
  have hq : q.val < 256 := q.isLt
  refine congrArg₂ (· * ·) (congrArg x0 ?_) (congrArg x4 ?_)
  · funext a
    refine Fin.ext ?_
    match a with
    | ⟨0, _⟩ => show (n.val * 256 + q.val) / 128 % 2 = q.val / 128; omega
    | ⟨1, _⟩ => show (n.val * 256 + q.val) / 256 = n.val; omega
    | ⟨2, _⟩ => rfl
  · funext a
    refine Fin.ext ?_
    match a with
    | ⟨0, _⟩ => rfl
    | ⟨1, _⟩ => show (n.val * 256 + q.val) % 128 = q.val % 128; omega

/-- The reference's aggregated array is the message passing of its node-major array: the same operations, on the
    same shapes, with the same literals. -/
theorem messages_eq (x0 : (⟨S2x50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x128, .f32⟩ : BufTy).Contents (Elt Ideal)) :
    val_main_v15 (F := Ideal) x0 x1 x2 x3 x4 = messages (val_main_v2 (F := Ideal) x0 x4) x1 x2 x3 := rfl

/-- The reference's result is `finish` of the message passing of `support`. -/
theorem result_eq (x0 : (⟨S2x50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x128, .f32⟩ : BufTy).Contents (Elt Ideal))
    (x5 : (⟨S128, .f32⟩ : BufTy).Contents (Elt Ideal)) :
    val_main_v20 (F := Ideal) x0 x1 x2 x3 x4 x5 = finish (messages (support x0 x4) x1 x2 x3) x5 := by
  funext j
  obtain ⟨b, n, o, rfl⟩ : ∃ (b : Fin 2) (n : Fin 50000) (o : Fin 128), j = ix3 b n o := ⟨j 0, j 1, j 2, eq_ix3 j⟩
  rw [val_main_v20_apply, val_main_v17_apply, val_main_v16_apply, val_main_v19_apply, val_main_v18_apply, messages_eq,
    support_eq, finish_apply]
  have hb : b.val < 2 := b.isLt
  have hn : n.val < 50000 := n.isLt
  have ho : o.val < 128 := o.isLt
  refine congrArg₂ (· + ·) (congrArg (messages (support x0 x4) x1 x2 x3) ?_) (congrArg x5 ?_)
  · funext a
    refine Fin.ext ?_
    match a with
    | ⟨0, _⟩ => show ((n.val * 2 + b.val) * 128 + o.val) / 256 = n.val; omega
    | ⟨1, _⟩ => show ((n.val * 2 + b.val) * 128 + o.val) % 256 = b.val * 128 + o.val; omega
  · funext a
    match a with
    | ⟨0, _⟩ => rfl

end Cert.ReferenceIdeal.RefValue

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.Region0.lean ====
/-
  Region 0 of the graph-convolution layer: the dense transform, read off the pipeline's write-backs.

  At grid point (b, i) the body multiplies block (b, i, 0) of x (5000 node rows of batch b, all 128 features) by the
  whole weight matrix and writes the 5000 × 128 product as block (i, b) of the node-major array. Every entry of that
  array lies in exactly such a block, so after the twenty points the array is
      S[n, q] = Σ_k x[q / 128, n, k] · w[k, q % 128].
-/
import proofs.«120719_j66778151518716_1_alg».proof.Proof.Gen.KernelIdeal.Frame
import proofs.«120719_j66778151518716_1_alg».proof.Proof.Spec
import proofs.«120719_j66778151518716_1_alg».proof.Proof.LibMatmul
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.ValueIdx
open Idealize.ShloMosaic.Pipeline (Dat)
open Cert.KernelIdeal Cert.KernelIdeal.Gen
open Cert.Bridge

namespace Cert.KernelIdeal.Region0

/-! ## The body's product at an entry -/

/-- Dropping the leading unit axis of a [1, 5000, 128] block: entry (r, k) of the matrix is entry (0, r, k) of the block. -/
theorem dropUnit_apply (x0 : Vec Ideal S1x5000x128 .f32) (h : S1x5000x128.ShapeCasts S5000x128) (r : Fin 5000) (k : Fin 128) :
    shapeCast S5000x128 x0 h (ix2 r k) = x0 (ix3 0 r k) := by
  refine (shapeCast_dropUnit_apply ![5000, 128] x0 h (ix2 r k)).trans (congrArg x0 ?_)
  funext a
  match a with
  | ⟨0, _⟩ => rfl
  | ⟨1, _⟩ => rfl
  | ⟨2, _⟩ => rfl

/-- The body's payload at (r, o): row r of the block times column o of the weights. Narrowing the operands to the
    shorter format is the identity on extended reals, and the accumulator is the zero matrix. -/
theorem payload_apply (x0 : Vec Ideal S1x5000x128 .f32) (x1 : Vec Ideal S128x128 .f32) (r : Fin 5000) (o : Fin 128) :
    k0_pay1 (F := Ideal) x0 x1 (ix2 r o) = ∑ k : Fin 128, x0 (ix3 0 r k) * x1 (ix2 k o) := by
  unfold k0_pay1
  refine (LibMatmul.matmul_zero_apply (M := 5000) (K := 128) (N := 128) none _ _ r o).trans ?_
  refine Finset.sum_congr rfl fun k _ => ?_
  exact congrArg (fun z => z * x1 (ix2 k o)) (dropUnit_apply x0 _ r k)

/-- A block's product is the dense transform at the block's position: if the first operand holds rows
    5000 i … 5000 i + 4999 of batch b of x and the second holds w, entry (r, o) of the product is entry
    (5000 i + r, 128 b + o) of the node-major transform. -/
theorem block_support (x : (⟨3, ![2, 50000, 128]⟩ : Shape).Idx → EReal) (w : (⟨2, ![128, 128]⟩ : Shape).Idx → EReal)
    (x0 : Vec Ideal S1x5000x128 .f32) (x1 : Vec Ideal S128x128 .f32) (b : Fin 2) (n : Fin 50000) (r : Fin 5000) (o : Fin 128)
    (h0 : ∀ k : Fin 128, x0 (ix3 0 r k) = x (ix3 b n k))
    (h1 : ∀ k : Fin 128, x1 (ix2 k o) = w (ix2 k o)) :
    k0_pay1 (F := Ideal) x0 x1 (ix2 r o) = support x w (ix2 n (nmCol b o)) := by
  rw [payload_apply, support_apply, colBatch_nmCol, colFeat_nmCol]
  exact Finset.sum_congr rfl fun k _ => by rw [h0 k, h1 k]

/-! ## The index maps over the twenty grid points -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- At every point the block of x read is (b, i, 0) where the block written is (i, b); the weights' block is (0, 0);
    i is at most 9 and b at most 1. -/
theorem index_facts : ∀ t : Fin cfg0.N,
    win0_0.index t (0 : Fin 3) = win0_2.index t (1 : Fin 2)
    ∧ win0_0.index t (1 : Fin 3) = win0_2.index t (0 : Fin 2)
    ∧ win0_0.index t (2 : Fin 3) = 0
    ∧ win0_1.index t (0 : Fin 2) = 0
    ∧ win0_1.index t (1 : Fin 2) = 0
    ∧ win0_2.index t (0 : Fin 2) ≤ 9
    ∧ win0_2.index t (1 : Fin 2) ≤ 1 :=
  (by decide +kernel : ∀ t : Fin grid0.N, _)

/-- Every block (i, b) of the node-major array is some point's. -/
theorem index_onto : ∀ (q0 : Fin 10) (q1 : Fin 2), ∃ t : Fin cfg0.N, win0_2.index t = ![q0.val, q1.val] :=
  (by decide +kernel : ∀ (q0 : Fin 10) (q1 : Fin 2), ∃ t : Fin grid0.N, win0_2.index t = ![q0.val, q1.val])

/-! ## What a point writes back -/

/-- What point t writes back is its block of the dense transform of the arrays the region finds. -/
theorem flushed_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (support (V c main_arg0) (V c main_arg4)) := by
  show (cfg0.win 2).cut (grid0.coords t) ((dat0 (F := Ideal) V c).after 2 t) = _
  rw [after0_2]
  unfold out0_2
  rw [View.canon_unit_zero zeros2]
  simp only [View.ld_unit_zero (S := S1x5000x128) zeros3, View.ld_unit_zero (S := S128x128) zeros2]
  obtain ⟨e0, e1, e2, e3, e4, e5, e6⟩ := index_facts t
  funext j
  have hj0 : (j 0).val < 5000 := (j 0).isLt
  have hj1 : (j 1).val < 128 := (j 1).isLt
  have hx : (cfg0.win 2).xinj (grid0.coords t) j = ix2 (⟨(j 0).val, hj0⟩ : Fin 5000) (⟨(j 1).val, hj1⟩ : Fin 128) :=
    funext fun a => by
      match a with
      | ⟨0, _⟩ => rfl
      | ⟨1, _⟩ => rfl
  show k0_pay1 (F := Ideal) (iblk0 V c 0 t) (iblk0 V c 1 t) ((cfg0.win 2).xinj (grid0.coords t) j)
    = support (V c main_arg0) (V c main_arg4) (((cfg0.win 2).blk t).view.emb j)
  rw [hx]
  refine (block_support (V c main_arg0) (V c main_arg4) (iblk0 V c 0 t) (iblk0 V c 1 t)
    ⟨win0_2.index t (1 : Fin 2), by omega⟩ ⟨win0_2.index t (0 : Fin 2) * 5000 + (j 0).val, by omega⟩
    ⟨(j 0).val, hj0⟩ ⟨(j 1).val, hj1⟩ (fun k => ?_) (fun k => ?_)).trans ?_
  · -- the block of x: batch b, rows 5000 i …, every feature
    show V c main_arg0 (((cfg0.win 0).blk t).view.emb (ix3 0 ⟨(j 0).val, hj0⟩ k)) = V c main_arg0 _
    refine congrArg (V c main_arg0) (funext fun a => Fin.ext ?_)
    match a with
    | ⟨0, _⟩ => show win0_0.index t (0 : Fin 3) * 1 + 1 * 0 = win0_2.index t (1 : Fin 2); omega
    | ⟨1, _⟩ => show win0_0.index t (1 : Fin 3) * 5000 + 1 * (j 0).val = win0_2.index t (0 : Fin 2) * 5000 + (j 0).val; omega
    | ⟨2, _⟩ => show win0_0.index t (2 : Fin 3) * 128 + 1 * k.val = k.val; omega
  · -- the block of w: all of it
    show V c main_arg4 (((cfg0.win 1).blk t).view.emb (ix2 k ⟨(j 1).val, hj1⟩)) = V c main_arg4 _
    refine congrArg (V c main_arg4) (funext fun a => Fin.ext ?_)
    match a with
    | ⟨0, _⟩ => show win0_1.index t (0 : Fin 2) * 128 + 1 * k.val = k.val; omega
    | ⟨1, _⟩ => show win0_1.index t (1 : Fin 2) * 128 + 1 * (j 1).val = (j 1).val; omega
  · -- the entry written: row 5000 i + r, column 128 b + o
    refine congrArg (support (V c main_arg0) (V c main_arg4)) (funext fun a => Fin.ext ?_)
    match a with
    | ⟨0, _⟩ => show win0_2.index t (0 : Fin 2) * 5000 + (j 0).val = win0_2.index t (0 : Fin 2) * 5000 + 1 * (j 0).val; omega
    | ⟨1, _⟩ => show win0_2.index t (1 : Fin 2) * 128 + (j 1).val = win0_2.index t (1 : Fin 2) * 128 + 1 * (j 1).val; omega

/-! ## The blocks cover the array -/

/-- An entry of the node-major array is in point t's block iff each coordinate is in the block's range on its axis. -/
theorem mem_blk (t : Fin cfg0.N) (i : S50000x256.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Entry (n, q) lies in the block of the point that writes block (n / 5000, q / 128). -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := index_onto ⟨(i 0).val / 5000, by omega⟩ ⟨(i 1).val / 128, by omega⟩
  have q0 : win0_2.index t (0 : Fin 2) = (i 0).val / 5000 := congrFun ht 0
  have q1 : win0_2.index t (1 : Fin 2) = (i 1).val / 128 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-! ## The array after the region -/

/-- After the twenty points the node-major array is the dense transform of the arrays the region found. -/
theorem array (V : (c : Dev nD) → (b : Ref sig .tc) → Buf (Elt Ideal) ((c : Thread nD τ).loc b)) (c : Dev nD) :
    (dat0 (F := Ideal) V c).arrAt 2 cfg0.N = Cert.Bridge.support (V c main_arg0) (V c main_arg4) :=
  (dat0 (F := Ideal) V c).arrAt_eq_of_cover 2 _ (fun t _ => flushed_eq V c t) cover

end Cert.KernelIdeal.Region0

end
-- ==== Proof.Region1.lean ====
/-
  The finishing region of the graph-convolution layer, read as one function of whole arrays.

  The region walks a grid of 2 × 10 points (b, i). At point (b, i) it reads the 5000 × 128 block of the aggregated
  node-major array whose block row is i and whose block column is b, adds the bias vector to every row, and writes the
  result as the block (b, i, 0) — shape 1 × 5000 × 128 — of the batch-major output. Entry (b, n, o) of the output
  therefore depends on exactly two entries of the inputs: the aggregated array at row n, column b · 128 + o, and the bias
  at o; it is their sum. The 20 output blocks tile the output, so after the last point the output array is
  `finish agg bias` everywhere.
-/
import proofs.«120719_j66778151518716_1_alg».proof.Proof.Gen.KernelIdeal.Frame
import proofs.«120719_j66778151518716_1_alg».proof.Proof.Spec
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)
open Idealize.ShloMosaic.ValueIdx
open Cert.KernelIdeal Cert.KernelIdeal.Gen

namespace Cert.KernelIdeal.Region1

/-! ## One block: the sum of an aggregated row entry and a bias entry -/

/-- The zero offsets of a whole-block access, on one, two and three axes. -/
theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The value the body stores, as a tree of operations of the two blocks it loads: the bias vector viewed as one row,
    that row repeated over the 5000 rows, added to the aggregated block, and the sum viewed with a leading unit axis. -/
theorem stored_eq (x0 : Vec Ideal S5000x128 .f32) (x1 : Vec Ideal S128 .f32) :
    k1_pay1 (F := Ideal) x0 x1
      = shapeCast S1x5000x128
          (addf (shapeCast S5000x128 x0 shapeCasts_S5000x128_S5000x128)
            (broadcastTo S5000x128 (shapeCast S1x128 x1 shapeCasts_S128_S1x128) broadcasts_S1x128_S5000x128))
          shapeCasts_S5000x128_S1x5000x128 := rfl

/-- At entry (u, r, o) of the stored block: the aggregated block at (r, o) plus the bias at o. The leading-unit-axis
    views keep the row-major position, the repeated row reads the bias row at column o whatever r is, and the addition
    is entrywise. -/
theorem stored_apply (x0 : Vec Ideal S5000x128 .f32) (x1 : Vec Ideal S128 .f32) (u : Fin 1) (r : Fin 5000) (o : Fin 128) :
    k1_pay1 (F := Ideal) x0 x1 (ix3 u r o) = x0 (ix2 r o) + x1 (ix1 o) := by
  rw [stored_eq]
  refine (shapeCast_ab_1ab_apply _ _ u r o).trans ?_
  rw [addf_apply, shapeCast_self, broadcastTo_1b_ab_apply, shapeCast_a_1a_apply]

/-- What the body leaves in the output's staging buffer: one store over the whole buffer of the value above, of the two
    input buffers read whole. -/
theorem body_eq (x0 : Vec Ideal S5000x128 .f32) (x1 : Vec Ideal S128 .f32) :
    out1_2 (F := Ideal) x0 x1 = k1_pay1 (F := Ideal) x0 x1 := by
  unfold out1_2
  rw [View.canon_unit_zero zeros3]
  simp only [View.ld_unit_zero (S := S5000x128) zeros2, View.ld_unit_zero (S := S128) zeros1]

/-- So entry (u, r, o) of that buffer is the first input buffer at (r, o) plus the second at o. -/
theorem body_apply (x0 : Vec Ideal S5000x128 .f32) (x1 : Vec Ideal S128 .f32) (u : Fin 1) (r : Fin 5000) (o : Fin 128) :
    out1_2 (F := Ideal) x0 x1 (ix3 u r o) = x0 (ix2 r o) + x1 (ix1 o) := by
  rw [body_eq]
  exact stored_apply x0 x1 u r o

/-! ## Where the blocks sit -/

/-- The three index maps over the 20 grid points: at point (b, i) the aggregated array's block is (i, b), the bias's is
    (0) and the output's is (b, i, 0), with b ≤ 1 and i ≤ 9. -/
theorem index_maps : ∀ t : Fin cfg1.N,
    win1_0.index t (0 : Fin 2) = win1_2.index t (1 : Fin 3)
    ∧ win1_0.index t (1 : Fin 2) = win1_2.index t (0 : Fin 3)
    ∧ win1_1.index t (0 : Fin 1) = 0
    ∧ win1_2.index t (2 : Fin 3) = 0
    ∧ win1_2.index t (0 : Fin 3) ≤ 1
    ∧ win1_2.index t (1 : Fin 3) ≤ 9 :=
  (by decide +kernel : ∀ t : Fin grid1.N, _)

/-- Every output block (b, i, 0), b < 2 and i < 10, is the block of some grid point. -/
theorem index_onto : ∀ (q0 : Fin 2) (q1 : Fin 10), ∃ t : Fin cfg1.N, win1_2.index t = ![q0.val, q1.val, 0] :=
  (by decide +kernel : ∀ (q0 : Fin 2) (q1 : Fin 10), ∃ t : Fin grid1.N, win1_2.index t = ![q0.val, q1.val, 0])

/-- `finish` at an output index i = (b, n, o), from the positions of the two entries it reads: row n, column b · 128 + o
    of the aggregated array, and entry o of the bias. -/
theorem finish_at (agg : S50000x256.Idx → EReal) (bias : S128.Idx → EReal)
    (i : S2x50000x128.Idx) (k : S50000x256.Idx) (l : S128.Idx)
    (hk0 : (k 0).val = (i 1).val) (hk1 : (k 1).val = (i 0).val * 128 + (i 2).val) (hl : (l 0).val = (i 2).val) :
    agg k + bias l = Cert.Bridge.finish agg bias i := by
  have ek : k = ix2 (i 1) (Cert.Bridge.nmCol (i 0) (i 2)) := by
    funext a; apply Fin.ext
    match a with
    | ⟨0, _⟩ => exact hk0
    | ⟨1, _⟩ => exact hk1
  have el : l = ix1 (i 2) := by
    funext a; apply Fin.ext
    match a with
    | ⟨0, _⟩ => exact hl
  rw [ek, el]
  rfl

/-- WHAT POINT t WRITES BACK is its block of `finish` of the two input arrays as the region finds them. An element of a
    block sits in its array, on each axis, at block index × block size + its coordinate inside the block: so entry
    (u, r, o) of the output block (b, i, 0) is output index (b, i · 5000 + r, o); the aggregated block (i, b) at (r, o) is
    row i · 5000 + r, column b · 128 + o, which is the node-major column of batch b and feature o; and the bias block (0)
    at o is entry o. -/
theorem block_eq (V : (c : Dev nD) → (b : Ref sig .tc) → Buf (Elt Ideal) ((c : Thread nD τ).loc b)) (c : Dev nD)
    (t : Fin cfg1.N) :
    (dat1 (F := Ideal) V c).flushed 2 t
      = ((cfg1.win 2).blk t).view.read (Elt Ideal) (Cert.Bridge.finish (V c main_v13) (V c main_arg5)) := by
  show (cfg1.win 2).cut (grid1.coords t) ((dat1 (F := Ideal) V c).after 2 t) = _
  rw [after1_2]
  obtain ⟨e0, e1, e2, e3, e4, e5⟩ := index_maps t
  funext j
  obtain ⟨u, r, o, rfl⟩ : ∃ (u : Fin 1) (r : Fin 5000) (o : Fin 128), j = ix3 u r o := ⟨j 0, j 1, j 2, eq_ix3 j⟩
  have hu : u.val = 0 := by omega
  refine (body_apply (iblk1 (F := Ideal) V c 0 t) (iblk1 (F := Ideal) V c 1 t) u r o).trans ?_
  refine finish_at (V c main_v13) (V c main_arg5) (((cfg1.win 2).blk t).view.emb (ix3 u r o))
    (((cfg1.win 0).blk t).view.emb (ix2 r o)) (((cfg1.win 1).blk t).view.emb (ix1 o)) ?_ ?_ ?_
  · show win1_0.index t (0 : Fin 2) * 5000 + 1 * r.val = win1_2.index t (1 : Fin 3) * 5000 + 1 * r.val
    omega
  · show win1_0.index t (1 : Fin 2) * 128 + 1 * o.val
        = (win1_2.index t (0 : Fin 3) * 1 + 1 * u.val) * 128 + (win1_2.index t (2 : Fin 3) * 128 + 1 * o.val)
    omega
  · show win1_1.index t (0 : Fin 1) * 128 + 1 * o.val = win1_2.index t (2 : Fin 3) * 128 + 1 * o.val
    omega

/-! ## The blocks tile the output -/

/-- An output index is in point t's block iff each coordinate is in the block's range on its axis. -/
theorem mem_block (t : Fin cfg1.N) (i : S2x50000x128.Idx) :
    i ∈ ((cfg1.win 2).blk t).view.set
      ↔ ∀ a : Fin 3, win1_2.index t a * S1x5000x128.size a ≤ (i a).val
          ∧ (i a).val < win1_2.index t a * S1x5000x128.size a + S1x5000x128.size a := by
  show i ∈ ((View.whole main_v14).slice (win1_2.rect t)).set ↔ _
  rw [View.set_slice_whole, Rect.mem_set_unit]
  exact Iff.rfl

/-- Every output index (b, n, o) lies in the block (b, n / 5000, 0), which some point writes back. -/
theorem blocks_cover (i : S2x50000x128.Idx) :
    ∃ t : Fin cfg1.N, (cfg1.win 2).flush t = true ∧ i ∈ ((cfg1.win 2).blk t).view.set := by
  have hi0 : (i 0).val < 2 := (i 0).isLt
  have hi1 : (i 1).val < 50000 := (i 1).isLt
  have hi2 : (i 2).val < 128 := (i 2).isLt
  obtain ⟨t, ht⟩ := index_onto ⟨(i 0).val, hi0⟩ ⟨(i 1).val / 5000, by omega⟩
  have q0 : win1_2.index t (0 : Fin 3) = (i 0).val := congrFun ht 0
  have q1 : win1_2.index t (1 : Fin 3) = (i 1).val / 5000 := congrFun ht 1
  have q2 : win1_2.index t (2 : Fin 3) = 0 := congrFun ht 2
  refine ⟨t, flush1_2 t, ?_⟩
  rw [mem_block]
  intro a
  match a with
  | ⟨0, _⟩ =>
    show win1_2.index t (0 : Fin 3) * 1 ≤ (i 0).val ∧ (i 0).val < win1_2.index t (0 : Fin 3) * 1 + 1
    omega
  | ⟨1, _⟩ =>
    show win1_2.index t (1 : Fin 3) * 5000 ≤ (i 1).val ∧ (i 1).val < win1_2.index t (1 : Fin 3) * 5000 + 5000
    omega
  | ⟨2, _⟩ =>
    show win1_2.index t (2 : Fin 3) * 128 ≤ (i 2).val ∧ (i 2).val < win1_2.index t (2 : Fin 3) * 128 + 128
    omega

/-! ## The output array after the region -/

/-- THE ARRAY after the last point: every point writes its block of `finish`, and the blocks cover the array. -/
theorem array (V : (c : Dev nD) → (b : Ref sig .tc) → Buf (Elt Ideal) ((c : Thread nD τ).loc b)) (c : Dev nD) :
    (dat1 (F := Ideal) V c).arrAt 2 cfg1.N = Cert.Bridge.finish (V c main_v13) (V c main_arg5) :=
  (dat1 (F := Ideal) V c).arrAt_eq_of_cover 2 _ (fun t _ => block_eq V c t) blocks_cover

end Cert.KernelIdeal.Region1

end
-- ==== Proof.Claims.lean ====
/-
  The five claims. The three frames: the two kernel programs' are the generated frame certificates, the reference's is
  its run with the result dropped. The idealization rewrote no operation, so there is nothing to preserve. The
  algebraic claim: from memories agreeing on the six arguments both programs end with the result buffer at
  `finish (messages (support x w) rows cols vals) bias` of the launch contents.
-/
import proofs.«120719_j66778151518716_1_alg».proof.Defs
import proofs.«120719_j66778151518716_1_alg».proof.Proof.Gen.Kernel.Frame
import proofs.«120719_j66778151518716_1_alg».proof.Proof.Gen.KernelIdeal.Frame
import proofs.«120719_j66778151518716_1_alg».proof.Proof.Gen.ReferenceIdeal.Run
import proofs.«120719_j66778151518716_1_alg».proof.Proof.Gen.ReferenceIdeal.Read
import proofs.«120719_j66778151518716_1_alg».proof.Proof.Gen.Pre_finite_inputs
import proofs.«120719_j66778151518716_1_alg».proof.Proof.KernelValue
import proofs.«120719_j66778151518716_1_alg».proof.Proof.RefValue
import proofs.«120719_j66778151518716_1_alg».proof.Proof.Region0
import proofs.«120719_j66778151518716_1_alg».proof.Proof.Region1

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at one function of the arguments: the kernel's by its two regions and the host stretch between
    them, the reference's by reading its operations at an index; the arguments agree by hypothesis. -/
theorem algebraic : Cert.algebraic_KernelIdeal_ReferenceIdeal := by
  intro m ρ m' ρ' _ hagree
  refine ⟨_, Cert.KernelIdeal.KernelValue.run m ρ Cert.KernelIdeal.Region0.array Cert.KernelIdeal.Region1.array, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.1, (hagree c).2.2.1, (hagree c).2.2.2.1, (hagree c).2.2.2.2.1, (hagree c).2.2.2.2.2]

end Cert.Proof.Claims

end
-- ==== Proof.lean ====
/-
  A graph-convolution layer, certified against its reference on the extended reals.

  The layer maps node features x[b, n, ·] through a weight matrix w, passes the transformed rows along the edges of a
  sparse graph (edge e carries row cols[e] of the transformed array, scaled by vals[e], into row rows[e]), and adds a
  bias. The kernel program computes the dense transform on a grid directly in node-major layout — row n, column q of a
  50000 × 256 array holds Σ_k x[q / 128, n, k] · w[k, q % 128] (Proof/Region0.lean) —, lets the host gather, scale and
  scatter-add the rows (Proof/Middle.lean: the same host operations as the reference's, never opened), and on a second
  grid returns to batch-major layout while adding the bias, out[b, n, o] = agg[n, b · 128 + o] + bias[o]
  (Proof/Region1.lean). The reference computes an einsum, transposes and reshapes it into the same node-major array,
  runs the same message passing, and reshapes, transposes and adds the broadcast bias (Proof/RefValue.lean). Both
  results are `finish (messages (support x w) rows cols vals) bias` (Proof/Spec.lean), with no use of finiteness: the
  two dense transforms are the same sum term by term, and everything after it is the same function of it.

  Proof/KernelRun.lean is the kernel program's run with its result buffer named, Proof/KernelValue.lean composes the
  two regions and the host stretch along it, Proof/Claims.lean states the five claims, assembled here behind the
  witnesses of the programs' stated side conditions.
-/
import proofs.«120719_j66778151518716_1_alg».proof.Defs
import proofs.«120719_j66778151518716_1_alg».proof.Proof.Gen.Kernel
import proofs.«120719_j66778151518716_1_alg».proof.Proof.Gen.Kernel.Skeleton
import proofs.«120719_j66778151518716_1_alg».proof.Proof.Gen.Kernel.Launch
import proofs.«120719_j66778151518716_1_alg».proof.Proof.Gen.Kernel.Points
import proofs.«120719_j66778151518716_1_alg».proof.Proof.Gen.Kernel.Frame
import proofs.«120719_j66778151518716_1_alg».proof.Proof.Gen.KernelIdeal
import proofs.«120719_j66778151518716_1_alg».proof.Proof.Gen.KernelIdeal.Skeleton
import proofs.«120719_j66778151518716_1_alg».proof.Proof.Gen.KernelIdeal.Launch
import proofs.«120719_j66778151518716_1_alg».proof.Proof.Gen.KernelIdeal.Points
import proofs.«120719_j66778151518716_1_alg».proof.Proof.Gen.KernelIdeal.Frame
import proofs.«120719_j66778151518716_1_alg».proof.Proof.Gen.ReferenceIdeal
import proofs.«120719_j66778151518716_1_alg».proof.Proof.Gen.Pre_finite_inputs
import proofs.«120719_j66778151518716_1_alg».proof.Proof.Gen.ReferenceIdeal.Run
import proofs.«120719_j66778151518716_1_alg».proof.Proof.Gen.ReferenceIdeal.Read
import proofs.«120719_j66778151518716_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
